-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x800000 : Shape := ⟨2, ![2, 800000]⟩
abbrev S100x100 : Shape := ⟨2, ![100, 100]⟩
abbrev S100 : Shape := ⟨1, ![100]⟩
abbrev S16x100 : Shape := ⟨2, ![16, 100]⟩
abbrev S16 : Shape := ⟨1, ![16]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S16x100 : S_.BroadcastsInDim S16x100 (![] : Fin 0 → Fin S16x100.rank)
  reducesTo_S16x100_S_d0_1 : S16x100.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16x100 .f32) (main_arg6 : FVec F S16 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S16x100 .f32 := Host.absf main_arg5
  let main_cst_6 : FVec F S_ .f32 := constant S_ .f32 0x7F800000#32
  let main_v20 : FVec F S16x100 .f32 := broadcastInDim S16x100 ![] bcast_S_S16x100 main_cst_6
  let main_v21 : IVec S16x100 1 := cmpf .olt main_v19 main_v20
  let main_c_7 : IVec S_ 1 := constantI S_ 1 1#1
  let main_v22 : IVec S_ 1 := (fun x v => Host.reduce IntOp.andi x v reducesTo_S16x100_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x100 .f32) (main_arg1 : IVec S2x800000 32) (main_arg2 : FVec F S100x100 .f32) (main_arg3 : FVec F S100 .f32) (main_arg4 : FVec F S100x100 .f32) (main_arg5 : FVec F S16x100 .f32) (main_arg6 : FVec F S16 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x100 .f32 := Host.absf main_arg2
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg4
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg5 main_arg6 main_v13 main_v16
-- ==== Kernel.lean ====
abbrev S100000x100 : Shape := ⟨2, ![100000, 100]⟩
abbrev S2x800000 : Shape := ⟨2, ![2, 800000]⟩
abbrev S100x100 : Shape := ⟨2, ![100, 100]⟩
abbrev S100 : Shape := ⟨1, ![100]⟩
abbrev S16x100 : Shape := ⟨2, ![16, 100]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S100000 : Shape := ⟨1, ![100000]⟩
abbrev S100000x1 : Shape := ⟨2, ![100000, 1]⟩
abbrev S100x16 : Shape := ⟨2, ![100, 16]⟩
abbrev S1x100 : Shape := ⟨2, ![1, 100]⟩
abbrev S1x16 : Shape := ⟨2, ![1, 16]⟩
abbrev S100000x16 : Shape := ⟨2, ![100000, 16]⟩
abbrev S4000x100 : Shape := ⟨2, ![4000, 100]⟩
abbrev S4000x1 : Shape := ⟨2, ![4000, 1]⟩
abbrev S4000x16 : Shape := ⟨2, ![4000, 16]⟩

abbrev nBuf : Space → Nat
  | .hbm => 37
  | .vmem => 13
  | .smem => 0
  | _ => 0

abbrev bufTy : (tb : Table) → Fin (tcTables nBuf tb) → BufTy
  | .hbm, ⟨0, _⟩ => ⟨S100000x100, .f32⟩
  | .hbm, ⟨1, _⟩ => ⟨S2x800000, .i32⟩
  | .hbm, ⟨2, _⟩ => ⟨S100x100, .f32⟩
  | .hbm, ⟨3, _⟩ => ⟨S100, .f32⟩
  | .hbm, ⟨4, _⟩ => ⟨S100x100, .f32⟩
  | .hbm, ⟨5, _⟩ => ⟨S16x100, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x100, .f32⟩
  | .hbm, ⟨20, _⟩ => ⟨S_, .f32⟩
  | .hbm, ⟨21, _⟩ => ⟨S100000x100, .f32⟩
  | .hbm, ⟨22, _⟩ => ⟨S800000x1, .i32⟩
  | .hbm, ⟨23, _⟩ => ⟨S100000x100, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S100000x1, .f32⟩
  | .hbm, ⟨31, _⟩ => ⟨S100x100, .f32⟩
  | .hbm, ⟨32, _⟩ => ⟨S100x100, .f32⟩
  | .hbm, ⟨33, _⟩ => ⟨S100x16, .f32⟩
  | .hbm, ⟨34, _⟩ => ⟨S1x100, .f32⟩
  | .hbm, ⟨35, _⟩ => ⟨S1x16, .f32⟩
  | .hbm, ⟨36, _⟩ => ⟨S100000x16, .f32⟩
  | .local _ .vmem, ⟨0, _⟩ => ⟨S4000x100, .f32⟩
  | .local _ .vmem, ⟨1, _⟩ => ⟨S4000x100, .f32⟩
  | .local _ .vmem, ⟨2, _⟩ => ⟨S4000x100, .f32⟩
  | .local _ .vmem, ⟨3, _⟩ => ⟨S4000x100, .f32⟩
  | .local _ .vmem, ⟨4, _⟩ => ⟨S4000x1, .f32⟩
  | .local _ .vmem, ⟨5, _⟩ => ⟨S4000x1, .f32⟩
  | .local _ .vmem, ⟨6, _⟩ => ⟨S100x100, .f32⟩
  | .local _ .vmem, ⟨7, _⟩ => ⟨S100x100, .f32⟩
  | .local _ .vmem, ⟨8, _⟩ => ⟨S100x16, .f32⟩
  | .local _ .vmem, ⟨9, _⟩ => ⟨S1x100, .f32⟩
  | .local _ .vmem, ⟨10, _⟩ => ⟨S1x16, .f32⟩
  | .local _ .vmem, ⟨11, _⟩ => ⟨S4000x16, .f32⟩
  | .local _ .vmem, ⟨12, _⟩ => ⟨S4000x16, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S_S100000 : S_.BroadcastsInDim S100000 (![] : Fin 0 → Fin S100000.rank)
  shapeCasts_S100000_S100000x1 : S100000.ShapeCasts S100000x1
  transposes_S100x100_S100x100_1_0 : S100x100.Transposes [1, 0] S100x100
  transposes_S16x100_S100x16_1_0 : S16x100.Transposes [1, 0] S100x16
  shapeCasts_S100_S1x100 : S100.ShapeCasts S1x100
  shapeCasts_S16_S1x16 : S16.ShapeCasts S1x16
  inb_S4000x100_S4000x100_0_0 : ∀ a, (![0, 0] : Fin 2 → Nat) a + S4000x100.size a ≤ S4000x100.size a
  h_S4000x100 : 0 < S4000x100.numel
  shapeCasts_S4000x100_S4000x100 : S4000x100.ShapeCasts S4000x100
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x100 : S4000x1.Broadcasts S4000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S100x16_S100x16_0_0 : ∀ a, (![0, 0] : Fin 2 → Nat) a + S100x16.size a ≤ S100x16.size a
  h_S100x16 : 0 < S100x16.numel
  shapeCasts_S100x16_S100x16 : S100x16.ShapeCasts S100x16
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x100_S4000x100 : S1x100.Broadcasts S4000x100
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  scatter_S100000_S800000x1_S800000_n_0_0_1_wf : ScatterDims.WF S100000 S800000x1 S800000 [] [0] [0] 1
  dot_S4000x100_S100x100_S4000x100_1_0_0_1_n_n_wf : DotDims.WF S4000x100 S100x100 S4000x100 [1] [0] [0] [1] [] []
  dot_S4000x100_S100x16_S4000x16_1_0_0_1_n_n_wf : DotDims.WF S4000x100 S100x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S100000x100.size a
  hwx0_0 : ∀ i : grid0.Coords, EltTy.bits .f32 = 32 ∨ (Rect.block (s := S100000x100) S4000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x100.size a ≤ S100000x100.size a
  hwx0_1 : ∀ i : grid0.Coords, EltTy.bits .f32 = 32 ∨ (Rect.block (s := S100000x100) S4000x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x100.size a ≤ S100x100.size a
  hwx0_4 : ∀ i : grid0.Coords, EltTy.bits .f32 = 32 ∨ (Rect.block (s := S100x100) S100x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x16.size a ≤ S100x16.size a
  hwx0_5 : ∀ i : grid0.Coords, EltTy.bits .f32 = 32 ∨ (Rect.block (s := S100x16) S100x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x16.size a ≤ S100000x16.size a
  hwx0_8 : ∀ i : grid0.Coords, EltTy.bits .f32 = 32 ∨ (Rect.block (s := S100000x16) S4000x16.size (cc0_transform_8 i) (hinb0_8 i)).WholeWords (EltTy.packing .f32)

variable [Facts₀]

def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x100_S100x100_S4000x100_1_0_0_1_n_n : DotDims S4000x100 S100x100 S4000x100 where
  lhsContracting := [1]
  rhsContracting := [0]
  lhsNonContracting := [0]
  rhsNonContracting := [1]
  lhsBatch := []
  rhsBatch := []
  wf := dot_S4000x100_S100x100_S4000x100_1_0_0_1_n_n_wf
def dot_S4000x100_S100x16_S4000x16_1_0_0_1_n_n : DotDims S4000x100 S100x16 S4000x16 where
  lhsContracting := [1]
  rhsContracting := [0]
  lhsNonContracting := [0]
  rhsNonContracting := [1]
  lhsBatch := []
  rhsBatch := []
  wf := dot_S4000x100_S100x16_S4000x16_1_0_0_1_n_n_wf

abbrev win0_0 : Pipeline.Window sig grid0 :=
  Pipeline.Window.ofSpec (Memref.whole main_v13) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S100x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S100x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S4000x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x100 : Shape := ⟨2, ![100000, 100]⟩
abbrev S2x800000 : Shape := ⟨2, ![2, 800000]⟩
abbrev S100x100 : Shape := ⟨2, ![100, 100]⟩
abbrev S100 : Shape := ⟨1, ![100]⟩
abbrev S16x100 : Shape := ⟨2, ![16, 100]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S100000 : Shape := ⟨1, ![100000]⟩
abbrev S100000x1 : Shape := ⟨2, ![100000, 1]⟩
abbrev S1x100 : Shape := ⟨2, ![1, 100]⟩
abbrev S100x16 : Shape := ⟨2, ![100, 16]⟩
abbrev S100000x16 : Shape := ⟨2, ![100000, 16]⟩
abbrev S1x16 : Shape := ⟨2, ![1, 16]⟩

abbrev nBuf : Space → Nat
  | .hbm => 52
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x800000, .i32⟩
  | .hbm, ⟨2, _⟩ => ⟨S100x100, .f32⟩
  | .hbm, ⟨3, _⟩ => ⟨S100, .f32⟩
  | .hbm, ⟨4, _⟩ => ⟨S100x100, .f32⟩
  | .hbm, ⟨5, _⟩ => ⟨S16x100, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x100, .f32⟩
  | .hbm, ⟨20, _⟩ => ⟨S_, .f32⟩
  | .hbm, ⟨21, _⟩ => ⟨S100000x100, .f32⟩
  | .hbm, ⟨22, _⟩ => ⟨S800000x1, .i32⟩
  | .hbm, ⟨23, _⟩ => ⟨S100000x100, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x100, .f32⟩
  | .hbm, ⟨35, _⟩ => ⟨S100000x100, .f32⟩
  | .hbm, ⟨36, _⟩ => ⟨S100x100, .f32⟩
  | .hbm, ⟨37, _⟩ => ⟨S100000x100, .f32⟩
  | .hbm, ⟨38, _⟩ => ⟨S1x100, .f32⟩
  | .hbm, ⟨39, _⟩ => ⟨S100000x100, .f32⟩
  | .hbm, ⟨40, _⟩ => ⟨S100000x100, .f32⟩
  | .hbm, ⟨41, _⟩ => ⟨S100x100, .f32⟩
  | .hbm, ⟨42, _⟩ => ⟨S100000x100, .f32⟩
  | .hbm, ⟨43, _⟩ => ⟨S100000x100, .f32⟩
  | .hbm, ⟨44, _⟩ => ⟨S_, .f32⟩
  | .hbm, ⟨45, _⟩ => ⟨S100000x100, .f32⟩
  | .hbm, ⟨46, _⟩ => ⟨S100000x100, .f32⟩
  | .hbm, ⟨47, _⟩ => ⟨S100x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  transposes_S100x100_S100x100_1_0 : S100x100.Transposes [1, 0] S100x100
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  transposes_S16x100_S100x16_1_0 : S16x100.Transposes [1, 0] S100x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  scatter_S100000_S800000x1_S800000_n_0_0_1_wf : ScatterDims.WF S100000 S800000x1 S800000 [] [0] [0] 1
  dot_S100000x100_S100x100_S100000x100_1_0_0_1_n_n_wf : DotDims.WF S100000x100 S100x100 S100000x100 [1] [0] [0] [1] [] []
  dot_S100000x100_S100x16_S100000x16_1_0_0_1_n_n_wf : DotDims.WF S100000x100 S100x16 S100000x16 [1] [0] [0] [1] [] []

variable [Facts₀]

def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf
def dot_S100000x100_S100x16_S100000x16_1_0_0_1_n_n : DotDims S100000x100 S100x16 S100000x16 where
  lhsContracting := [1]
  rhsContracting := [0]
  lhsNonContracting := [0]
  rhsNonContracting := [1]
  lhsBatch := []
  rhsBatch := []
  wf := dot_S100000x100_S100x16_S100000x16_1_0_0_1_n_n_wf

class Facts : Prop extends Facts₀ where

variable [Facts]
-- ==== Proof.Blocks.lean ====
/-
  Which rows each grid point is handed.

  The grid has 25 points.  At point t the three row-streamed input windows (the aggregated features, x, the degree
  column) and the output window are on block row t, that is rows 4000·t … 4000·t + 3999 of their arrays; the five
  resident windows (the three transposed weight matrices and the two bias rows) are always on their one block, the
  whole array.  Each read lemma is about ANY contents of the window's array.
-/
import proofs.«132808_j89232240541722_2_alg».proof.Proof.Gen.KernelIdeal.Frame
import Idealize.ShloMosaic.Lib.Pipeline.Value
import Idealize.ShloMosaic.Lib.ValueIdx

noncomputable section

namespace Cert.SageDense

open Idealize.ShloMosaic Idealize.ShloMosaic.TcCoe Idealize.SL.Sem Idealize.ShloMosaic.ValueIdx
open Cert.KernelIdeal Cert.KernelIdeal.Gen

theorem zero_offsets : (![0, 0] : Fin 2 → Nat) = fun _ => 0 := funext fun a => by fin_cases a <;> rfl

/-- The block each window is on at point t, decided over the 25 points: the three row-streamed inputs and the output
    are on block row t, the weights and biases always on their one block. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-! ## A window's block, read off whatever its array holds

Each lemma is about ANY contents f of the window's array: block t of a row-streamed window holds rows 4000·t … of f, and
the one block of a resident window holds f itself. -/

/-- Window 0 (the aggregated features): rows 4000·t … of its array. -/
theorem agg_read (c : Dev nD) (t : Fin cfg0.N) (f : Buf (Elt Ideal) ((c : Thread nD τ).loc main_v13)) (y : S4000x100.Idx) (k : S100000x100.Idx)
    (h0 : (k 0).val = 4000 * t.val + (y 0).val) (h1 : (k 1).val = (y 1).val) :
    (((cfg0.win 0).blk t).view.read (Elt Ideal) f : Vec Ideal S4000x100 .f32) y = (f : S100000x100.Idx → EReal) k := by
  obtain ⟨⟨e0, e1⟩, -⟩ := block_index t
  rw [View.read_apply]
  refine congrArg (f : S100000x100.Idx → EReal) (funext fun a => Fin.ext ?_)
  match a with
  | ⟨0, _⟩ => show win0_0.index t (0 : Fin 2) * 4000 + 1 * (y 0).val = (k 0).val; rw [e0, h0]; omega
  | ⟨1, _⟩ => show win0_0.index t (1 : Fin 2) * 100 + 1 * (y 1).val = (k 1).val; rw [e1, h1]; omega

/-- Window 1 (x): rows 4000·t … of its array. -/
theorem x_read (c : Dev nD) (t : Fin cfg0.N) (f : Buf (Elt Ideal) ((c : Thread nD τ).loc main_arg0)) (y : S4000x100.Idx) (k : S100000x100.Idx)
    (h0 : (k 0).val = 4000 * t.val + (y 0).val) (h1 : (k 1).val = (y 1).val) :
    (((cfg0.win 1).blk t).view.read (Elt Ideal) f : Vec Ideal S4000x100 .f32) y = (f : S100000x100.Idx → EReal) k := by
  obtain ⟨-, ⟨e0, e1⟩, -⟩ := block_index t
  rw [View.read_apply]
  refine congrArg (f : S100000x100.Idx → EReal) (funext fun a => Fin.ext ?_)
  match a with
  | ⟨0, _⟩ => show win0_1.index t (0 : Fin 2) * 4000 + 1 * (y 0).val = (k 0).val; rw [e0, h0]; omega
  | ⟨1, _⟩ => show win0_1.index t (1 : Fin 2) * 100 + 1 * (y 1).val = (k 1).val; rw [e1, h1]; omega

/-- Window 2 (the degree column): rows 4000·t … of its array. -/
theorem deg_read (c : Dev nD) (t : Fin cfg0.N) (f : Buf (Elt Ideal) ((c : Thread nD τ).loc main_v18)) (y : S4000x1.Idx) (k : S100000x1.Idx)
    (h0 : (k 0).val = 4000 * t.val + (y 0).val) (h1 : (k 1).val = (y 1).val) :
    (((cfg0.win 2).blk t).view.read (Elt Ideal) f : Vec Ideal S4000x1 .f32) y = (f : S100000x1.Idx → EReal) k := by
  obtain ⟨-, -, ⟨e0, e1⟩, -⟩ := block_index t
  rw [View.read_apply]
  refine congrArg (f : S100000x1.Idx → EReal) (funext fun a => Fin.ext ?_)
  match a with
  | ⟨0, _⟩ => show win0_2.index t (0 : Fin 2) * 4000 + 1 * (y 0).val = (k 0).val; rw [e0, h0]; omega
  | ⟨1, _⟩ => show win0_2.index t (1 : Fin 2) * 1 + 1 * (y 1).val = (k 1).val; rw [e1, h1]; omega

/-- Window 3 (Wlᵀ): the whole array. -/
theorem wl_read (c : Dev nD) (t : Fin cfg0.N) (f : Buf (Elt Ideal) ((c : Thread nD τ).loc main_v19)) (y : S100x100.Idx) :
    (((cfg0.win 3).blk t).view.read (Elt Ideal) f : Vec Ideal S100x100 .f32) y = (f : S100x100.Idx → EReal) y := by
  obtain ⟨-, -, -, ⟨e0, e1⟩, -⟩ := block_index t
  rw [View.read_apply]
  refine congrArg (f : S100x100.Idx → EReal) (funext fun a => Fin.ext ?_)
  match a with
  | ⟨0, _⟩ => show win0_3.index t (0 : Fin 2) * 100 + 1 * (y 0).val = (y 0).val; rw [e0]; omega
  | ⟨1, _⟩ => show win0_3.index t (1 : Fin 2) * 100 + 1 * (y 1).val = (y 1).val; rw [e1]; omega

/-- Window 4 (Wrᵀ): the whole array. -/
theorem wr_read (c : Dev nD) (t : Fin cfg0.N) (f : Buf (Elt Ideal) ((c : Thread nD τ).loc main_v20)) (y : S100x100.Idx) :
    (((cfg0.win 4).blk t).view.read (Elt Ideal) f : Vec Ideal S100x100 .f32) y = (f : S100x100.Idx → EReal) y := by
  obtain ⟨-, -, -, -, ⟨e0, e1⟩, -⟩ := block_index t
  rw [View.read_apply]
  refine congrArg (f : S100x100.Idx → EReal) (funext fun a => Fin.ext ?_)
  match a with
  | ⟨0, _⟩ => show win0_4.index t (0 : Fin 2) * 100 + 1 * (y 0).val = (y 0).val; rw [e0]; omega
  | ⟨1, _⟩ => show win0_4.index t (1 : Fin 2) * 100 + 1 * (y 1).val = (y 1).val; rw [e1]; omega

/-- Window 5 (Wcᵀ): the whole array. -/
theorem wc_read (c : Dev nD) (t : Fin cfg0.N) (f : Buf (Elt Ideal) ((c : Thread nD τ).loc main_v21)) (y : S100x16.Idx) :
    (((cfg0.win 5).blk t).view.read (Elt Ideal) f : Vec Ideal S100x16 .f32) y = (f : S100x16.Idx → EReal) y := by
  obtain ⟨-, -, -, -, -, ⟨e0, e1⟩, -⟩ := block_index t
  rw [View.read_apply]
  refine congrArg (f : S100x16.Idx → EReal) (funext fun a => Fin.ext ?_)
  match a with
  | ⟨0, _⟩ => show win0_5.index t (0 : Fin 2) * 100 + 1 * (y 0).val = (y 0).val; rw [e0]; omega
  | ⟨1, _⟩ => show win0_5.index t (1 : Fin 2) * 16 + 1 * (y 1).val = (y 1).val; rw [e1]; omega

/-- Window 6 (the bias row of the hidden layer): the whole array. -/
theorem bl_read (c : Dev nD) (t : Fin cfg0.N) (f : Buf (Elt Ideal) ((c : Thread nD τ).loc main_v22)) (y : S1x100.Idx) :
    (((cfg0.win 6).blk t).view.read (Elt Ideal) f : Vec Ideal S1x100 .f32) y = (f : S1x100.Idx → EReal) y := by
  obtain ⟨-, -, -, -, -, -, ⟨e0, e1⟩, -⟩ := block_index t
  rw [View.read_apply]
  refine congrArg (f : S1x100.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 100 + 1 * (y 1).val = (y 1).val; rw [e1]; omega

/-- Window 7 (the class-bias row): the whole array. -/
theorem bc_read (c : Dev nD) (t : Fin cfg0.N) (f : Buf (Elt Ideal) ((c : Thread nD τ).loc main_v23)) (y : S1x16.Idx) :
    (((cfg0.win 7).blk t).view.read (Elt Ideal) f : Vec Ideal S1x16 .f32) y = (f : S1x16.Idx → EReal) y := by
  obtain ⟨-, -, -, -, -, -, -, ⟨e0, e1⟩, -⟩ := block_index t
  rw [View.read_apply]
  refine congrArg (f : S1x16.Idx → EReal) (funext fun a => Fin.ext ?_)
  match a with
  | ⟨0, _⟩ => show win0_7.index t (0 : Fin 2) * 1 + 1 * (y 0).val = (y 0).val; rw [e0]; omega
  | ⟨1, _⟩ => show win0_7.index t (1 : Fin 2) * 16 + 1 * (y 1).val = (y 1).val; rw [e1]; omega

/-- The output window: what point t writes back of a block X is block t of contents f of the result array as soon as
    entry (p, q) of X is entry (4000·t + p, q) of f. -/
theorem out_block (c : Dev nD) (t : Fin cfg0.N) (X : Vec Ideal S4000x16 .f32) (f : Buf (Elt Ideal) ((c : Thread nD τ).loc main_v24))
    (h : ∀ (p : Fin 4000) (q : Fin 16) (r : Fin 100000), r.val = 4000 * t.val + p.val →
      X (ix2 p q) = (f : S100000x16.Idx → EReal) (ix2 r q)) :
    (cfg0.win 8).cut (grid0.coords t) X = ((cfg0.win 8).blk t).view.read (Elt Ideal) f := by
  funext y
  obtain ⟨p, q, rfl⟩ : ∃ (p : Fin 4000) (q : Fin 16), y = ix2 p q := ⟨y 0, y 1, eq_ix2 y⟩
  obtain ⟨-, -, -, -, -, -, -, -, e0, e1⟩ := block_index t
  have hN : cfg0.N = 25 := N_0
  have ht : t.val < 25 := Nat.lt_of_lt_of_eq t.isLt hN
  have hp : p.val < 4000 := p.isLt
  have hx : (cfg0.win 8).xinj (grid0.coords t) (ix2 p q) = (ix2 p q : S4000x16.Idx) := funext fun a => Fin.ext rfl
  rw [View.read_apply]
  show X ((cfg0.win 8).xinj (grid0.coords t) (ix2 p q)) = (f : S100000x16.Idx → EReal) (((cfg0.win 8).blk t).view.emb (ix2 p q))
  rw [hx, h p q ⟨4000 * t.val + p.val, by omega⟩ rfl]
  refine congrArg (f : S100000x16.Idx → EReal) (funext fun a => Fin.ext ?_)
  match a with
  | ⟨0, _⟩ => show 4000 * t.val + p.val = win0_8.index t (0 : Fin 2) * 4000 + 1 * p.val; rw [e0]; omega
  | ⟨1, _⟩ => show q.val = win0_8.index t (1 : Fin 2) * 16 + 1 * q.val; rw [e1]; omega

/-- The 25 blocks of the output window tile the result array: row r lies in the block of point r / 4000. -/
theorem covered (i : S100000x16.Idx) :
    ∃ t : Fin cfg0.N, (cfg0.win 8).flush t = true ∧ i ∈ ((cfg0.win 8).blk t).view.set := by
  have h0 : (i 0).val < 100000 := (i 0).isLt
  have h1 : (i 1).val < 16 := (i 1).isLt
  have hN : cfg0.N = 25 := N_0
  obtain ⟨t, htv⟩ : ∃ t : Fin cfg0.N, t.val = (i 0).val / 4000 := ⟨⟨(i 0).val / 4000, by rw [hN]; omega⟩, rfl⟩
  obtain ⟨-, -, -, -, -, -, -, -, e0, e1⟩ := block_index t
  refine ⟨t, flush0_8 t, ?_⟩
  show i ∈ ((View.whole main_v24).slice (win0_8.rect t)).set
  rw [View.set_slice_whole, Rect.mem_set_unit]
  intro a
  match a with
  | ⟨0, _⟩ =>
    show win0_8.index t (0 : Fin 2) * 4000 ≤ (i 0).val ∧ (i 0).val < win0_8.index t (0 : Fin 2) * 4000 + 4000
    rw [e0, htv]; omega
  | ⟨1, _⟩ =>
    show win0_8.index t (1 : Fin 2) * 16 ≤ (i 1).val ∧ (i 1).val < win0_8.index t (1 : Fin 2) * 16 + 16
    rw [e1]; omega

end Cert.SageDense

end
-- ==== Proof.Entry.lean ====
/-
  What the kernel's windows find in their arrays when the region is entered.

  Before the call the program gathers the source rows of x along the edges and scatter-adds them by destination node
  (the aggregated features), scatter-adds ones by destination node (the in-degrees) and reshapes that vector to a
  column, transposes the three weight matrices and reshapes the two bias vectors to rows.  The gather and the two
  scatter-adds are, operation for operation, the ones the reference program starts with, so they are carried here as
  the reference's own stages and never opened.
-/
import proofs.«132808_j89232240541722_2_alg».proof.Proof.Gen.KernelIdeal.Frame
import proofs.«132808_j89232240541722_2_alg».proof.Proof.Gen.ReferenceIdeal.Read
import Idealize.ShloMosaic.Lib.StableHlo.Run

noncomputable section

namespace Cert.SageDense

open Idealize.ShloMosaic Idealize.ShloMosaic.TcCoe Idealize.SL.Sem Cert.KernelIdeal Cert.KernelIdeal.Gen

variable (m : (ℓ : Loc nD τ sig) → Buf (Elt Ideal) ℓ)

/-- Window 0's array: the aggregated features, the reference's scatter-add of the gathered rows. -/
theorem entry_agg (c : Dev nD) :
    (V m c main_v13 : S100000x100.Idx → EReal)
      = Cert.ReferenceIdeal.Read.val_main_v13 (F := Ideal) (m ((c : Thread nD τ).loc main_arg0)) (m ((c : Thread nD τ).loc main_arg1)) := by
  dsimp only [Gen.V, Gen.hostOps0]; after_results; rfl

/-- Window 2's array: the in-degrees, the reference's scatter-add of ones, as a column. -/
theorem entry_deg (c : Dev nD) :
    (V m c main_v18 : S100000x1.Idx → EReal)
      = shapeCast S100000x1 (Cert.ReferenceIdeal.Read.val_main_v17 (F := Ideal) (m ((c : Thread nD τ).loc main_arg1))) shapeCasts_S100000_S100000x1 := by
  dsimp only [Gen.V, Gen.hostOps0]; after_results; rfl

/-- Windows 3, 4, 5: the three weight matrices transposed. -/
theorem entry_wl (c : Dev nD) :
    (V m c main_v19 : S100x100.Idx → EReal) = transpose S100x100 [1, 0] (m ((c : Thread nD τ).loc main_arg2)) transposes_S100x100_S100x100_1_0 := by
  dsimp only [Gen.V, Gen.hostOps0]; after_results

theorem entry_wr (c : Dev nD) :
    (V m c main_v20 : S100x100.Idx → EReal) = transpose S100x100 [1, 0] (m ((c : Thread nD τ).loc main_arg4)) transposes_S100x100_S100x100_1_0 := by
  dsimp only [Gen.V, Gen.hostOps0]; after_results

theorem entry_wc (c : Dev nD) :
    (V m c main_v21 : S100x16.Idx → EReal) = transpose S100x16 [1, 0] (m ((c : Thread nD τ).loc main_arg5)) transposes_S16x100_S100x16_1_0 := by
  dsimp only [Gen.V, Gen.hostOps0]; after_results

/-- Windows 6, 7: the two bias vectors as rows. -/
theorem entry_bl (c : Dev nD) :
    (V m c main_v22 : S1x100.Idx → EReal) = shapeCast S1x100 (m ((c : Thread nD τ).loc main_arg3)) shapeCasts_S100_S1x100 := by
  dsimp only [Gen.V, Gen.hostOps0]; after_results; rfl

theorem entry_bc (c : Dev nD) :
    (V m c main_v23 : S1x16.Idx → EReal) = shapeCast S1x16 (m ((c : Thread nD τ).loc main_arg6)) shapeCasts_S16_S1x16 := by
  dsimp only [Gen.V, Gen.hostOps0]; after_results; rfl

end Cert.SageDense

end
-- ==== Proof.Spec.lean ====
/-
  What one row of the result is, as a formula on the extended reals.

  A GraphSAGE layer with mean aggregation followed by a linear classifier: for a node with aggregated neighbour
  features a (the sum over its incoming edges), in-degree d and own features x,
      mean  = a / max(d, 1)                       (an isolated node divides by 1)
      h_k   = max(∑ⱼ meanⱼ · Wl(k, j) + bl_k + ∑ⱼ xⱼ · Wr(k, j), 0)
      out_q = ∑ₖ h_k · Wc(q, k) + bc_q .
  The row depends on nothing but the node's own a, d, x and the weights, so the whole [100000, 16] result is this
  one function applied row by row (`G`).  The two programs differ only in where the bias joins the two products:
  (u + v) + b against (u + b) + v, equal on the extended reals by commutativity and associativity of the sum alone
  (`hidK_eq`); no entry needs to be finite.
-/
import Idealize.ShloMosaic.PureOps.Ideal
import Idealize.ShloMosaic.Lib.ValueIdx

noncomputable section

namespace Cert.SageDense

open Idealize.ShloMosaic Idealize.ShloMosaic.ValueIdx

/-- The float word of 1.0, as both programs spell it. -/
abbrev one : EReal := Ideal.ofBits .f32 0x3F800000#32
/-- The float word of 0.0. -/
abbrev zero : EReal := Ideal.ofBits .f32 0x00000000#32

/-- Hidden unit k of a node: relu of (mean · Wlᵀ + bl) + x · Wrᵀ, the mean being a / max(d, 1). -/
def hid (a : Fin 100 → EReal) (d : EReal) (xr : Fin 100 → EReal) (wl : Fin 100 → Fin 100 → EReal)
    (bl : Fin 100 → EReal) (wr : Fin 100 → Fin 100 → EReal) (k : Fin 100) : EReal :=
  max (((∑ j : Fin 100, Ideal.div (a j) (max d one) * wl k j) + bl k) + ∑ j : Fin 100, xr j * wr k j) zero

/-- The same with the bias added last: (mean · Wlᵀ + x · Wrᵀ) + bl. -/
def hidK (a : Fin 100 → EReal) (d : EReal) (xr : Fin 100 → EReal) (wl : Fin 100 → Fin 100 → EReal)
    (bl : Fin 100 → EReal) (wr : Fin 100 → Fin 100 → EReal) (k : Fin 100) : EReal :=
  max (((∑ j : Fin 100, Ideal.div (a j) (max d one) * wl k j) + ∑ j : Fin 100, xr j * wr k j) + bl k) zero

/-- (u + v) + b = (u + b) + v: the order in which the bias and the second product join the first. -/
theorem hidK_eq (a : Fin 100 → EReal) (d : EReal) (xr : Fin 100 → EReal) (wl : Fin 100 → Fin 100 → EReal)
    (bl : Fin 100 → EReal) (wr : Fin 100 → Fin 100 → EReal) (k : Fin 100) :
    hidK a d xr wl bl wr k = hid a d xr wl bl wr k := by
  unfold hidK hid
  rw [add_right_comm]

/-- Class score q of a node: its hidden units against row q of the classifier, plus the class bias. -/
def rowOut (a : Fin 100 → EReal) (d : EReal) (xr : Fin 100 → EReal) (wl : Fin 100 → Fin 100 → EReal)
    (bl : Fin 100 → EReal) (wr : Fin 100 → Fin 100 → EReal) (wc : Fin 16 → Fin 100 → EReal) (bc : Fin 16 → EReal)
    (q : Fin 16) : EReal :=
  (∑ k : Fin 100, hid a d xr wl bl wr k * wc q k) + bc q

/-- The same over the bias-last hidden units. -/
def rowOutK (a : Fin 100 → EReal) (d : EReal) (xr : Fin 100 → EReal) (wl : Fin 100 → Fin 100 → EReal)
    (bl : Fin 100 → EReal) (wr : Fin 100 → Fin 100 → EReal) (wc : Fin 16 → Fin 100 → EReal) (bc : Fin 16 → EReal)
    (q : Fin 16) : EReal :=
  (∑ k : Fin 100, hidK a d xr wl bl wr k * wc q k) + bc q

theorem rowOutK_eq (a : Fin 100 → EReal) (d : EReal) (xr : Fin 100 → EReal) (wl : Fin 100 → Fin 100 → EReal)
    (bl : Fin 100 → EReal) (wr : Fin 100 → Fin 100 → EReal) (wc : Fin 16 → Fin 100 → EReal) (bc : Fin 16 → EReal)
    (q : Fin 16) : rowOutK a d xr wl bl wr wc bc q = rowOut a d xr wl bl wr wc bc q := by
  unfold rowOutK rowOut
  simp only [hidK_eq]

/-- The whole result: entry (r, q) is class score q of node r, from row r of the aggregated features `agg`, entry r
    of the in-degrees `deg`, row r of `x`, and the weights as the arguments hold them (Wl, Wr : [100, 100] and
    Wc : [16, 100], each read as (output unit, input unit)). -/
def G (agg : (⟨2, ![100000, 100]⟩ : Shape).Idx → EReal) (deg : (⟨1, ![100000]⟩ : Shape).Idx → EReal)
    (x : (⟨2, ![100000, 100]⟩ : Shape).Idx → EReal) (Wl : (⟨2, ![100, 100]⟩ : Shape).Idx → EReal)
    (bl : (⟨1, ![100]⟩ : Shape).Idx → EReal) (Wr : (⟨2, ![100, 100]⟩ : Shape).Idx → EReal)
    (Wc : (⟨2, ![16, 100]⟩ : Shape).Idx → EReal) (bc : (⟨1, ![16]⟩ : Shape).Idx → EReal) :
    (⟨2, ![100000, 16]⟩ : Shape).Idx → EReal := fun i =>
  rowOut (fun j => agg (ix2 (i 0) j)) (deg (ix1 (i 0))) (fun j => x (ix2 (i 0) j)) (fun k j => Wl (ix2 k j))
    (fun k => bl (ix1 k)) (fun k j => Wr (ix2 k j)) (fun q k => Wc (ix2 q k)) (fun q => bc (ix1 q)) (i 1)

/-- `G` at an entry written by coordinates. -/
theorem G_apply (agg : (⟨2, ![100000, 100]⟩ : Shape).Idx → EReal) (deg : (⟨1, ![100000]⟩ : Shape).Idx → EReal)
    (x : (⟨2, ![100000, 100]⟩ : Shape).Idx → EReal) (Wl : (⟨2, ![100, 100]⟩ : Shape).Idx → EReal)
    (bl : (⟨1, ![100]⟩ : Shape).Idx → EReal) (Wr : (⟨2, ![100, 100]⟩ : Shape).Idx → EReal)
    (Wc : (⟨2, ![16, 100]⟩ : Shape).Idx → EReal) (bc : (⟨1, ![16]⟩ : Shape).Idx → EReal)
    (r : Fin 100000) (q : Fin 16) :
    G agg deg x Wl bl Wr Wc bc (ix2 r q)
      = rowOut (fun j => agg (ix2 r j)) (deg (ix1 r)) (fun j => x (ix2 r j)) (fun k j => Wl (ix2 k j))
          (fun k => bl (ix1 k)) (fun k j => Wr (ix2 k j)) (fun q k => Wc (ix2 q k)) (fun q => bc (ix1 q)) q := rfl

end Cert.SageDense

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.Payload.lean ====
/-
  One entry of the block the kernel body stores, as the row formula.

  The body divides each row of its aggregated-feature block by max(in-degree, 1), multiplies that and the node-feature
  block by the two (transposed) weight blocks, adds the two products and then the bias row, clamps below at 0,
  multiplies by the (transposed) classifier block and adds the class-bias row.  Roundings to bf16 mean nothing on the
  extended reals and each matrix product into a zero accumulator is the plain sum over the contracted axis, so entry
  (p, q) of the stored block is `rowOutK` of row p of the two row blocks, entry p of the degree column, and the weight
  blocks read transposed.
-/
import proofs.«132808_j89232240541722_2_alg».proof.Proof.Gen.KernelIdeal.Skeleton
import proofs.«132808_j89232240541722_2_alg».proof.Proof.Spec
import proofs.«132808_j89232240541722_2_alg».proof.Proof.LibPlainDot
import proofs.«132808_j89232240541722_2_alg».proof.Proof.LibKeepdimsLayout
import Idealize.ShloMosaic.Lib.Pipeline.Value
import Idealize.ShloMosaic.Lib.ValueLayout

noncomputable section

namespace Cert.SageDense

open Idealize.ShloMosaic Idealize.ShloMosaic.ValueIdx Cert.KernelIdeal Cert.KernelIdeal.Gen

/-- A [4000, 100] × [100, 100] product into zero, at entry (p, k): the sum over the 100 contracted positions. -/
theorem matmul_hidden (A : FVec Ideal S4000x100 .bf16) (W : FVec Ideal S100x100 .bf16) (p : Fin 4000) (k : Fin 100) :
    matmul dot_S4000x100_S100x100_S4000x100_1_0_0_1_n_n none A W (constant S4000x100 .f32 0x00000000#32) (ix2 p k)
      = ∑ j : Fin 100, A (ix2 p j) * W (ix2 j k) :=
  Cert.LibPlainDot.matmul_zero_apply dot_S4000x100_S100x100_S4000x100_1_0_0_1_n_n.wf none A W p k

/-- A [4000, 100] × [100, 16] product into zero, at entry (p, q). -/
theorem matmul_classes (A : FVec Ideal S4000x100 .bf16) (W : FVec Ideal S100x16 .bf16) (p : Fin 4000) (q : Fin 16) :
    matmul dot_S4000x100_S100x16_S4000x16_1_0_0_1_n_n none A W (constant S4000x16 .f32 0x00000000#32) (ix2 p q)
      = ∑ k : Fin 100, A (ix2 p k) * W (ix2 k q) :=
  Cert.LibPlainDot.matmul_zero_apply dot_S4000x100_S100x16_S4000x16_1_0_0_1_n_n.wf none A W p q

/-- Entry (p, q) of the stored block over the loaded blocks themselves: x0 the aggregated features, x2 the degree
    column, x1 the node features, x3 / x4 / x5 the transposed weights, x6 / x7 the bias rows. -/
theorem payload_raw (x0 x1 : Vec Ideal S4000x100 .f32) (x2 : Vec Ideal S4000x1 .f32) (x3 x4 : Vec Ideal S100x100 .f32)
    (x5 : Vec Ideal S100x16 .f32) (x6 : Vec Ideal S1x100 .f32) (x7 : Vec Ideal S1x16 .f32) (p : Fin 4000) (q : Fin 16) :
    k0_pay1 (F := Ideal) x0 x2 x1 x3 x4 x5 x6 x7 (ix2 p q)
      = rowOutK (fun j => x0 (ix2 p j)) (x2 (ix2 p (0 : Fin 1))) (fun j => x1 (ix2 p j)) (fun k j => x3 (ix2 j k))
          (fun k => x6 (ix2 (0 : Fin 1) k)) (fun k j => x4 (ix2 j k)) (fun q k => x5 (ix2 k q))
          (fun q => x7 (ix2 (0 : Fin 1) q)) q := by
  unfold k0_pay1
  simp only [shapeCast_self]
  simp only [addf_apply, maximumf_apply, truncf_apply, divf_apply, broadcast_apply, matmul_classes, matmul_hidden,
    broadcastTo_1b_ab_apply, Cert.KernelIdeal.Val.broadcastTo_a1_ab_apply]
  rfl

/-- The same with every factor NAMED: whatever is known of the loaded blocks at the entries the row reads — row p of
    the two row blocks, entry p of the degree column, the weights transposed, the bias rows — the stored entry is the
    row formula `rowOut` over those (the bias moved past the second product by `rowOutK_eq`). -/
theorem payload_apply (x0 x1 : Vec Ideal S4000x100 .f32) (x2 : Vec Ideal S4000x1 .f32) (x3 x4 : Vec Ideal S100x100 .f32)
    (x5 : Vec Ideal S100x16 .f32) (x6 : Vec Ideal S1x100 .f32) (x7 : Vec Ideal S1x16 .f32) (p : Fin 4000) (q : Fin 16)
    (a : Fin 100 → EReal) (d : EReal) (xr : Fin 100 → EReal) (wl : Fin 100 → Fin 100 → EReal) (bl : Fin 100 → EReal)
    (wr : Fin 100 → Fin 100 → EReal) (wc : Fin 16 → Fin 100 → EReal) (bc : Fin 16 → EReal)
    (h0 : ∀ j, x0 (ix2 p j) = a j) (h2 : x2 (ix2 p (0 : Fin 1)) = d) (h1 : ∀ j, x1 (ix2 p j) = xr j)
    (h3 : ∀ k j, x3 (ix2 j k) = wl k j) (h6 : ∀ k, x6 (ix2 (0 : Fin 1) k) = bl k) (h4 : ∀ k j, x4 (ix2 j k) = wr k j)
    (h5 : ∀ q k, x5 (ix2 k q) = wc q k) (h7 : ∀ q, x7 (ix2 (0 : Fin 1) q) = bc q) :
    k0_pay1 (F := Ideal) x0 x2 x1 x3 x4 x5 x6 x7 (ix2 p q) = rowOut a d xr wl bl wr wc bc q := by
  obtain rfl : (fun j => x0 (ix2 p j)) = a := funext h0
  obtain rfl : (fun j => x1 (ix2 p j)) = xr := funext h1
  obtain rfl : (fun k j => x3 (ix2 j k)) = wl := funext fun k => funext (h3 k)
  obtain rfl : (fun k => x6 (ix2 (0 : Fin 1) k)) = bl := funext h6
  obtain rfl : (fun k j => x4 (ix2 j k)) = wr := funext fun k => funext (h4 k)
  obtain rfl : (fun q k => x5 (ix2 k q)) = wc := funext fun q => funext (h5 q)
  obtain rfl : (fun q => x7 (ix2 (0 : Fin 1) q)) = bc := funext h7
  subst h2
  rw [payload_raw, rowOutK_eq]

end Cert.SageDense

end
-- ==== Proof.Written.lean ====
/-
  One entry of what a grid point writes back.

  Point t's body is handed rows 4000·t … of the aggregated features, of x and of the degree column, and the whole
  weight and bias arrays.  Reading each block off its array (which row of which array an entry of a block is) and each
  array off the host operations that made it (a scatter-add carried unopened, a reshape, a transpose), entry (p, q) of
  the stored block is the row formula of node 4000·t + p: entry (4000·t + p, q) of `result`.
-/
import proofs.«132808_j89232240541722_2_alg».proof.Proof.Blocks
import proofs.«132808_j89232240541722_2_alg».proof.Proof.Entry
import proofs.«132808_j89232240541722_2_alg».proof.Proof.Payload
import Idealize.ShloMosaic.Lib.ValueLayout

noncomputable section

namespace Cert.SageDense

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The result array: `G` of the aggregated features and the in-degrees (the reference's own stages of x and the edge
    list, carried unopened) and of the arguments as launched. -/
abbrev result (c : Dev nD) : Buf (Elt Ideal) ((c : Thread nD τ).loc main_v24) :=
  G (Cert.ReferenceIdeal.Read.val_main_v13 (F := Ideal) (m ((c : Thread nD τ).loc main_arg0)) (m ((c : Thread nD τ).loc main_arg1)))
    (Cert.ReferenceIdeal.Read.val_main_v17 (F := Ideal) (m ((c : Thread nD τ).loc main_arg1)))
    (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))

/-- Entry (p, q) of what point t writes back is entry (4000·t + p, q) of `result`: the body's stored entry is the row
    formula of the blocks' row p (`payload_apply`), and row p of each row-streamed block is row 4000·t + p of its
    array, the weight and bias blocks the transposed matrices and the bias rows. -/
theorem written_entry (c : Dev nD) (t : Fin cfg0.N) (p : Fin 4000) (q : Fin 16) (r : Fin 100000) (hr : r.val = 4000 * t.val + p.val) :
    k0_pay1 (F := Ideal) (iblk m c 0 t) (iblk m c 2 t) (iblk m c 1 t) (iblk m c 3 t) (iblk m c 4 t) (iblk m c 5 t) (iblk m c 6 t) (iblk m c 7 t) (ix2 p q)
      = (result m c : S100000x16.Idx → EReal) (ix2 r q) := by
  refine (payload_apply (iblk m c 0 t) (iblk m c 1 t) (iblk m c 2 t) (iblk m c 3 t) (iblk m c 4 t) (iblk m c 5 t) (iblk m c 6 t) (iblk m c 7 t) p q
    (fun j => Cert.ReferenceIdeal.Read.val_main_v13 (F := Ideal) (m ((c : Thread nD τ).loc main_arg0)) (m ((c : Thread nD τ).loc main_arg1)) (ix2 r j))
    (Cert.ReferenceIdeal.Read.val_main_v17 (F := Ideal) (m ((c : Thread nD τ).loc main_arg1)) (ix1 r))
    (fun j => (m ((c : Thread nD τ).loc main_arg0)) (ix2 r j)) (fun k j => (m ((c : Thread nD τ).loc main_arg2)) (ix2 k j)) (fun k => (m ((c : Thread nD τ).loc main_arg3)) (ix1 k))
    (fun k j => (m ((c : Thread nD τ).loc main_arg4)) (ix2 k j)) (fun q k => (m ((c : Thread nD τ).loc main_arg5)) (ix2 q k)) (fun q => (m ((c : Thread nD τ).loc main_arg6)) (ix1 q))
    ?_ ?_ ?_ ?_ ?_ ?_ ?_ ?_).trans (G_apply _ _ _ _ _ _ _ _ r q).symm
  · exact fun j => (agg_read c t (V m c main_v13) (ix2 p j) (ix2 r j) hr rfl).trans (congrFun (entry_agg m c) (ix2 r j))
  · exact (deg_read c t (V m c main_v18) (ix2 p (0 : Fin 1)) (ix2 r (0 : Fin 1)) hr rfl).trans
      ((congrFun (entry_deg m c) (ix2 r (0 : Fin 1))).trans (Cert.KernelIdeal.Val.shapeCast_a_a1_apply _ _ r (0 : Fin 1)))
  · exact fun j => (x_read c t (V m c main_arg0) (ix2 p j) (ix2 r j) hr rfl).trans (congrFun (V_main_arg0 m c) (ix2 r j))
  · exact fun k j => (wl_read c t (V m c main_v19) (ix2 j k)).trans
      ((congrFun (entry_wl m c) (ix2 j k)).trans (transpose_ix2_apply _ _ j k))
  · exact fun k => (bl_read c t (V m c main_v22) (ix2 (0 : Fin 1) k)).trans
      ((congrFun (entry_bl m c) (ix2 (0 : Fin 1) k)).trans (shapeCast_a_1a_apply _ _ (0 : Fin 1) k))
  · exact fun k j => (wr_read c t (V m c main_v20) (ix2 j k)).trans
      ((congrFun (entry_wr m c) (ix2 j k)).trans (transpose_ix2_apply _ _ j k))
  · exact fun q k => (wc_read c t (V m c main_v21) (ix2 k q)).trans
      ((congrFun (entry_wc m c) (ix2 k q)).trans (transpose_ix2_apply _ _ k q))
  · exact fun q => (bc_read c t (V m c main_v23) (ix2 (0 : Fin 1) q)).trans
      ((congrFun (entry_bc m c) (ix2 (0 : Fin 1) q)).trans (shapeCast_a_1a_apply _ _ (0 : Fin 1) q))

end Cert.SageDense

end
-- ==== Proof.KernelValue.lean ====
/-
  The kernel's result array is `G`.

  Entry (p, q) of what point t writes back is entry (4000·t + p, q) of `result` (`written_entry`), so point t writes
  block t of `result` (`written_eq`); the 25 blocks of 4000 rows tile the [100000, 16] array (`covered`); hence the
  array after the run is `result`, which is `G` of the aggregated features, the in-degrees and the arguments as
  launched (`final`, `run`).
-/
import proofs.«132808_j89232240541722_2_alg».proof.Proof.Gen.KernelIdeal.Value
import proofs.«132808_j89232240541722_2_alg».proof.Proof.Written
import Idealize.ShloMosaic.Lib.Pipeline.Value

noncomputable section

namespace Cert.SageDense

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- WHAT POINT t WRITES BACK is block t of `result`: rows 4000·t … 4000·t + 3999. -/
theorem written_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero zero_offsets]
  simp only [View.ld_unit_zero (S := S4000x100) zero_offsets, View.ld_unit_zero (S := S4000x1) zero_offsets,
    View.ld_unit_zero (S := S100x100) zero_offsets, View.ld_unit_zero (S := S100x16) zero_offsets,
    View.ld_unit_zero (S := S1x100) zero_offsets, View.ld_unit_zero (S := S1x16) zero_offsets]
  exact out_block c t _ (result m c) (fun p q r hr => written_entry m c t p q r hr)

/-- So the result array ends holding `result`. -/
theorem final (c : Dev nD) : (dats m 0 c).arrAt 8 cfg0.N = result m c :=
  (dats m 0 c).arrAt_eq_of_cover 8 (result m c) (fun t _ => written_eq m c t) covered

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.SageDense

end
-- ==== Proof.RefIsSpec.lean ====
/-
  The reference program computes `G`.

  Read one operation at a time, entry (r, q) of the reference's result is the sum over k of
  max((∑ⱼ agg(r, j) / max(deg r, 1) · Wl(k, j) + bl k) + ∑ⱼ x(r, j) · Wr(k, j), 0) · Wc(q, k), plus bc q: its two
  transposes read Wl, Wr, Wc back at (k, j) and (q, k), its two-step broadcasts read the degree at r and the biases at k
  and q.  That is `rowOut` of row r, with the aggregated features and the in-degrees left as the stages that compute
  them (the gather and the two scatter-adds are never opened).
-/
import proofs.«132808_j89232240541722_2_alg».proof.Proof.Gen.ReferenceIdeal.Read
import proofs.«132808_j89232240541722_2_alg».proof.Proof.Spec

noncomputable section

namespace Cert.SageDense

open Idealize.ShloMosaic Idealize.ShloMosaic.ValueIdx Cert.ReferenceIdeal Cert.ReferenceIdeal.Read

theorem reference_eq (x0 : (⟨S100000x100, .f32⟩ : BufTy).Contents (Elt Ideal)) (x1 : (⟨S2x800000, .i32⟩ : BufTy).Contents (Elt Ideal))
    (x2 : (⟨S100x100, .f32⟩ : BufTy).Contents (Elt Ideal)) (x3 : (⟨S100, .f32⟩ : BufTy).Contents (Elt Ideal))
    (x4 : (⟨S100x100, .f32⟩ : BufTy).Contents (Elt Ideal)) (x5 : (⟨S16x100, .f32⟩ : BufTy).Contents (Elt Ideal))
    (x6 : (⟨S16, .f32⟩ : BufTy).Contents (Elt Ideal)) :
    val_main_v36 (F := Ideal) x0 x1 x2 x3 x4 x5 x6
      = G (val_main_v13 (F := Ideal) x0 x1) (val_main_v17 (F := Ideal) x1) x0 x2 x3 x4 x5 x6 := by
  funext i
  obtain ⟨r, q, rfl⟩ : ∃ (r : Fin 100000) (q : Fin 16), i = ix2 r q := ⟨i 0, i 1, eq_ix2 i⟩
  rw [G_apply]
  -- the classifier product reads the hidden units of row r and column q of Wcᵀ
  have l33 : ∀ k : Fin 100, lidx_main_v33 (ix2 r q) k = ix2 r k := fun k => funext fun a => Fin.ext (by
    match a with | ⟨0, _⟩ => rfl | ⟨1, _⟩ => rfl)
  have r33 : ∀ k : Fin 100, ridx_main_v33 (ix2 r q) k = ix2 k q := fun k => funext fun a => Fin.ext (by
    match a with | ⟨0, _⟩ => rfl | ⟨1, _⟩ => rfl)
  have t32 : ∀ k : Fin 100, idx_main_v32 (ix2 k q) = ix2 q k := fun k => funext fun a => Fin.ext (by
    match a with | ⟨0, _⟩ => rfl | ⟨1, _⟩ => rfl)
  -- the two hidden products read row r and column k of Wlᵀ, Wrᵀ
  have l24 : ∀ k j : Fin 100, lidx_main_v24 (ix2 r k) j = ix2 r j := fun k j => funext fun a => Fin.ext (by
    match a with | ⟨0, _⟩ => rfl | ⟨1, _⟩ => rfl)
  have r24 : ∀ k j : Fin 100, ridx_main_v24 (ix2 r k) j = ix2 j k := fun k j => funext fun a => Fin.ext (by
    match a with | ⟨0, _⟩ => rfl | ⟨1, _⟩ => rfl)
  have l29 : ∀ k j : Fin 100, lidx_main_v29 (ix2 r k) j = ix2 r j := fun k j => funext fun a => Fin.ext (by
    match a with | ⟨0, _⟩ => rfl | ⟨1, _⟩ => rfl)
  have r29 : ∀ k j : Fin 100, ridx_main_v29 (ix2 r k) j = ix2 j k := fun k j => funext fun a => Fin.ext (by
    match a with | ⟨0, _⟩ => rfl | ⟨1, _⟩ => rfl)
  have t23 : ∀ k j : Fin 100, idx_main_v23 (ix2 j k) = ix2 k j := fun k j => funext fun a => Fin.ext (by
    match a with | ⟨0, _⟩ => rfl | ⟨1, _⟩ => rfl)
  have t28 : ∀ k j : Fin 100, idx_main_v28 (ix2 j k) = ix2 k j := fun k j => funext fun a => Fin.ext (by
    match a with | ⟨0, _⟩ => rfl | ⟨1, _⟩ => rfl)
  -- the broadcasts: the degree of row r, the biases of unit k and class q
  have b21 : ∀ j : Fin 100, idx_main_v20 (idx_main_v21 (ix2 r j)) = ix1 r := fun j => funext fun a => Fin.ext (by
    match a with | ⟨0, _⟩ => rfl)
  have b26 : ∀ k : Fin 100, idx_main_v25 (idx_main_v26 (ix2 r k)) = ix1 k := fun k => funext fun a => Fin.ext (by
    match a with | ⟨0, _⟩ => rfl)
  have b35 : idx_main_v34 (idx_main_v35 (ix2 r q)) = ix1 q := funext fun a => Fin.ext (by
    match a with | ⟨0, _⟩ => rfl)
  -- the stages at the entries row r reads
  have hdeg : ∀ j : Fin 100, val_main_v21 (F := Ideal) x1 (ix2 r j) = max (val_main_v17 (F := Ideal) x1 (ix1 r)) one := fun j => by
    rw [val_main_v21_apply, val_main_v20_apply, b21 j, val_main_v19_apply, val_main_v18_apply, val_main_cst_3_apply]
    rfl
  have hwl : ∀ k j : Fin 100, val_main_v23 (F := Ideal) x2 (ix2 j k) = x2 (ix2 k j) := fun k j => by
    rw [val_main_v23_apply, t23 k j]
  have hwr : ∀ k j : Fin 100, val_main_v28 (F := Ideal) x4 (ix2 j k) = x4 (ix2 k j) := fun k j => by
    rw [val_main_v28_apply, t28 k j]
  have hwc : ∀ k : Fin 100, val_main_v32 (F := Ideal) x5 (ix2 k q) = x5 (ix2 q k) := fun k => by
    rw [val_main_v32_apply, t32 k]
  have hbl : ∀ k : Fin 100, val_main_v26 (F := Ideal) x3 (ix2 r k) = x3 (ix1 k) := fun k => by
    rw [val_main_v26_apply, val_main_v25_apply, b26 k]
  have hbc : val_main_v35 (F := Ideal) x6 (ix2 r q) = x6 (ix1 q) := by
    rw [val_main_v35_apply, val_main_v34_apply, b35]
  have hzero : ∀ k : Fin 100, val_main_call0_v0 (F := Ideal) (ix2 r k) = zero := fun k => by
    rw [val_main_call0_v0_apply, val_main_call0_cst_apply]
    rfl
  -- the two products into the hidden layer, and the hidden unit
  have hmean : ∀ k : Fin 100, val_main_v24 (F := Ideal) x0 x1 x2 (ix2 r k)
      = ∑ j : Fin 100, Ideal.div (val_main_v13 (F := Ideal) x0 x1 (ix2 r j)) (max (val_main_v17 (F := Ideal) x1 (ix1 r)) one) * x2 (ix2 k j) := fun k => by
    rw [val_main_v24_apply]
    refine Finset.sum_congr rfl fun j _ => ?_
    rw [l24 k j, r24 k j, hwl k j, val_main_v22_apply, hdeg j]
    rfl
  have hself : ∀ k : Fin 100, val_main_v29 (F := Ideal) x0 x4 (ix2 r k) = ∑ j : Fin 100, x0 (ix2 r j) * x4 (ix2 k j) := fun k => by
    rw [val_main_v29_apply]
    refine Finset.sum_congr rfl fun j _ => ?_
    rw [l29 k j, r29 k j, hwr k j]
  have hhid : ∀ k : Fin 100, val_main_v31 (F := Ideal) x0 x1 x2 x3 x4 (ix2 r k)
      = hid (fun j => val_main_v13 (F := Ideal) x0 x1 (ix2 r j)) (val_main_v17 (F := Ideal) x1 (ix1 r)) (fun j => x0 (ix2 r j))
          (fun k j => x2 (ix2 k j)) (fun k => x3 (ix1 k)) (fun k j => x4 (ix2 k j)) k := fun k => by
    rw [val_main_v31_apply, val_main_v30_apply, val_main_v27_apply, hmean k, hbl k, hself k, hzero k]
    rfl
  rw [val_main_v36_apply, val_main_v33_apply, hbc]
  unfold rowOut
  refine congrArg (· + x6 (ix1 q)) (Finset.sum_congr rfl fun k _ => ?_)
  rw [l33 k, r33 k, hhid k, hwc k]

end Cert.SageDense

end
-- ==== Proof.lean ====
/-
  The five claims of this certificate.

  The kernel is the dense half of a GraphSAGE layer with mean aggregation followed by a linear classifier: the host part
  of its program gathers and scatter-adds the neighbour features and counts the in-degrees, and the kernel, 4000 rows
  at a time over 25 grid points, divides each aggregated row by max(degree, 1), applies the two weight matrices, adds
  the bias, clamps at zero, and applies the classifier.  The reference does the same with whole-array operations.

  * The three frames: the two kernel programs' are the generated frame runs; the reference, a host program with no
    kernel, runs by its generated run with the result dropped.
  * `preserves`: the idealization rewrote no operation, so there is nothing to state.
  * `algebraic`: on the extended reals both programs end with `Cert.SageDense.G` of the same aggregated features,
    in-degrees and arguments.  The kernel side is `Cert.SageDense.run` (each grid point writes its 4000 rows of `G`,
    and the 25 blocks tile the array); the reference side is `Cert.SageDense.reference_eq`, read one operation at a
    time.  The one algebraic law between them is (u + v) + b = (u + b) + v for the bias of the hidden layer, which holds
    for all extended reals, so the precondition (finite inputs) is never opened.
-/
import proofs.«132808_j89232240541722_2_alg».proof.Defs
import proofs.«132808_j89232240541722_2_alg».proof.Proof.Gen.Kernel
import proofs.«132808_j89232240541722_2_alg».proof.Proof.Gen.Kernel.Skeleton
import proofs.«132808_j89232240541722_2_alg».proof.Proof.Gen.Kernel.Launch
import proofs.«132808_j89232240541722_2_alg».proof.Proof.Gen.Kernel.Points
import proofs.«132808_j89232240541722_2_alg».proof.Proof.Gen.Kernel.Frame
import proofs.«132808_j89232240541722_2_alg».proof.Proof.Gen.KernelIdeal
import proofs.«132808_j89232240541722_2_alg».proof.Proof.Gen.KernelIdeal.Skeleton
import proofs.«132808_j89232240541722_2_alg».proof.Proof.Gen.KernelIdeal.Launch
import proofs.«132808_j89232240541722_2_alg».proof.Proof.Gen.KernelIdeal.Points
import proofs.«132808_j89232240541722_2_alg».proof.Proof.Gen.KernelIdeal.Frame
import proofs.«132808_j89232240541722_2_alg».proof.Proof.Gen.ReferenceIdeal
import proofs.«132808_j89232240541722_2_alg».proof.Proof.Gen.Pre_finite_inputs
import proofs.«132808_j89232240541722_2_alg».proof.Proof.Gen.KernelIdeal.Value
import proofs.«132808_j89232240541722_2_alg».proof.Proof.Gen.ReferenceIdeal.Run
import proofs.«132808_j89232240541722_2_alg».proof.Proof.Gen.ReferenceIdeal.Read
import proofs.«132808_j89232240541722_2_alg».proof.Proof.KernelValue
import proofs.«132808_j89232240541722_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `G` of arguments that agree. -/
theorem algebraic : Cert.algebraic_KernelIdeal_ReferenceIdeal := by
  intro m ρ m' ρ' _ hagree
  refine ⟨fun c => Cert.SageDense.result m c, Cert.SageDense.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v36_eq, Cert.SageDense.reference_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
